-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x16 .f32) (main_arg3 : FVec F S16 .f32) (main_arg4 : FVec F S16x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg2
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1433 : Shape := ⟨2, ![2000, 1433]⟩
abbrev S2000x16 : Shape := ⟨2, ![2000, 16]⟩
abbrev S3300000x16 : Shape := ⟨2, ![3300000, 16]⟩
abbrev S1x16 : Shape := ⟨2, ![1, 16]⟩
abbrev S10000x16 : Shape := ⟨2, ![10000, 16]⟩
abbrev S100000x7 : Shape := ⟨2, ![100000, 7]⟩
abbrev S10000x7 : Shape := ⟨2, ![10000, 7]⟩
abbrev S3300000x7 : Shape := ⟨2, ![3300000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x7, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x7, .f32⟩
  | .hbm, ⟨75, _⟩ => ⟨S3300000x7, .f32⟩
  | .hbm, ⟨76, _⟩ => ⟨S3300000x7, .f32⟩
  | .hbm, ⟨77, _⟩ => ⟨S_, .f32⟩
  | .hbm, ⟨78, _⟩ => ⟨S100000x7, .f32⟩
  | .hbm, ⟨79, _⟩ => ⟨S3300000x1, .i32⟩
  | .hbm, ⟨80, _⟩ => ⟨S100000x7, .f32⟩
  | .hbm, ⟨81, _⟩ => ⟨S1x7, .f32⟩
  | .hbm, ⟨82, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x7, .f32⟩
  | .local _ .vmem, ⟨13, _⟩ => ⟨S10000x7, .f32⟩
  | .local _ .vmem, ⟨14, _⟩ => ⟨S10000x7, .f32⟩
  | .local _ .vmem, ⟨15, _⟩ => ⟨S10000x7, .f32⟩
  | .local _ .vmem, ⟨16, _⟩ => ⟨S10000x7, .f32⟩
  | .local _ .vmem, ⟨17, _⟩ => ⟨S1x7, .f32⟩
  | .local _ .vmem, ⟨18, _⟩ => ⟨S10000x7, .f32⟩
  | .local _ .vmem, ⟨19, _⟩ => ⟨S10000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x16_S1433x16_0_0 : ∀ a, (![0, 0] : Fin 2 → Nat) a + S1433x16.size a ≤ S1433x16.size a
  h_S1433x16 : 0 < S1433x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1433_S1433x16_S2000x16_1_0_0_1_n_n_wf : DotDims.WF S2000x1433 S1433x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S100000x7.size a
  hwx3_0 : ∀ i : grid3.Coords, EltTy.bits .f32 = 32 ∨ (Rect.block (s := S100000x7) S10000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x7.size a ≤ S100000x7.size a
  hwx3_2 : ∀ i : grid3.Coords, EltTy.bits .f32 = 32 ∨ (Rect.block (s := S100000x7) S10000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 126
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x16, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x7, .f32⟩
  | .hbm, ⟨98, _⟩ => ⟨S3300000x1, .f32⟩
  | .hbm, ⟨99, _⟩ => ⟨S3300000x7, .f32⟩
  | .hbm, ⟨100, _⟩ => ⟨S3300000x7, .f32⟩
  | .hbm, ⟨101, _⟩ => ⟨S_, .f32⟩
  | .hbm, ⟨102, _⟩ => ⟨S100000x7, .f32⟩
  | .hbm, ⟨103, _⟩ => ⟨S3300000x1, .i32⟩
  | .hbm, ⟨104, _⟩ => ⟨S100000x7, .f32⟩
  | .hbm, ⟨105, _⟩ => ⟨S1x7, .f32⟩
  | .hbm, ⟨106, _⟩ => ⟨S100000x7, .f32⟩
  | .hbm, ⟨107, _⟩ => ⟨S100000x7, .f32⟩
  | .hbm, ⟨108, _⟩ => ⟨S_, .f32⟩
  | .hbm, ⟨109, _⟩ => ⟨S100000x7, .f32⟩
  | .hbm, ⟨110, _⟩ => ⟨S100000x7, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x7, .f32⟩
  | .hbm, ⟨118, _⟩ => ⟨S100000x7, .f32⟩
  | .hbm, ⟨119, _⟩ => ⟨S100000x7, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x7, .f32⟩
  | .hbm, ⟨125, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_v80 : Ref sig .tc := ⟨.hbm, 110, rfl⟩
abbrev main_call3_cst : Ref sig .tc := ⟨.hbm, 111, rfl⟩
abbrev main_call3_v0 : Ref sig .tc := ⟨.hbm, 112, rfl⟩
abbrev main_call3_cst_0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_cst_1 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_v81 : Ref sig .tc := ⟨.hbm, 125, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  dot_S100000x1433_S1433x16_S100000x16_1_0_0_1_n_n_wf : DotDims.WF S100000x1433 S1433x16 S100000x16 [1] [0] [0] [1] [] []
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel's run with its result named. The program is four grid regions among stretches of host operations; its
  run is a fold of the buffer contents through those nine segments from the launch memory. Every weakly fair execution
  terminates, and the final memory holds, at every buffer that is not a region's scratch, the last contents of that
  fold — in particular at the result buffer (the last region's output array) and at the six argument arrays, which
  nothing writes.
-/
import proofs.«172935_j3332894622180_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last contents
    of the fold through the segments, and the argument arrays end as launched. -/
theorem run : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Layer1Activation.lean ====
/-
  The first layer's activation, max(A + b, 0), as the kernel computes it: ten grid points, point t taking rows
  10000 t … 10000 t + 9999 of the aggregated features A (100000 × 16) and the bias as one 1 × 16 row, and writing
  the same rows of the result. Entry (i, j) of the result depends on A (i, j) and b (0, j) only, so each block is
  the restriction of one whole-array function, and the ten blocks tile the 100000 rows.
-/
import proofs.«172935_j3332894622180_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1Activation

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem origin2 : (![0, 0] : Fin 2 → Nat) = fun _ => 0 := funext fun a => by fin_cases a <;> rfl

/-- max(A + b, 0) entry by entry, the bias a 1 × 16 row. -/
def biasRelu (a : S100000x16.Idx → EReal) (b : S1x16.Idx → EReal) : S100000x16.Idx → EReal :=
  fun i => max (a i + b (ix2 (0 : Fin 1) (⟨(i 1).val, (i 1).isLt⟩ : Fin 16))) (Scalar.ofBits (F := Ideal) .f32 0x00000000#32)

/-- One block's stored value at an entry: the block's entry plus the bias row's entry in that column, against zero. -/
theorem block_apply (x0 : Vec Ideal S10000x16 .f32) (x1 : Vec Ideal S1x16 .f32) (p : Fin 10000) (q : Fin 16) :
    k1_pay1 (F := Ideal) x0 x1 (ix2 p q) = max (x0 (ix2 p q) + x1 (ix2 (0 : Fin 1) q)) (Scalar.ofBits (F := Ideal) .f32 0x00000000#32) := by
  unfold k1_pay1
  rw [maximumf_apply, addf_apply, shapeCast_self, shapeCast_self, broadcastTo_1b_ab_apply, broadcast_apply]

/-- The printed index maps over the ten points: the input's and the result's blocks move together down the rows, the
    bias row's block index is zero, and so is the column-block index. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) < 10 :=
  (by decide +kernel : ∀ t : Fin grid1.N, _)

/-- Every block of rows is some point's. -/
theorem index_onto : ∀ q : Fin 10, ∃ t : Fin cfg1.N, win1_2.index t = ![q.val, 0] :=
  (by decide +kernel : ∀ q : Fin 10, ∃ t : Fin grid1.N, win1_2.index t = ![q.val, 0])

section Region
variable (V : (c : Dev nD) → (b : Ref sig .tc) → Buf (Elt Ideal) ((c : Thread nD τ).loc b))

/-- What point `t` writes back is block `t` of the whole activation of the arrays the region finds. -/
theorem flushed_eq (c : Dev nD) (t : Fin cfg1.N) :
    (dat1 V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero origin2]
  simp only [View.ld_unit_zero (S := S10000x16) origin2, View.ld_unit_zero (S := S1x16) origin2]
  obtain ⟨e0, e1, e2, e3, e4, e5⟩ := index_facts t
  funext y
  obtain ⟨p, q, rfl⟩ : ∃ (p : Fin 10000) (q : Fin 16), y = ix2 p q := ⟨y 0, y 1, eq_ix2 y⟩
  show k1_pay1 (F := Ideal) (iblk1 V c 0 t) (iblk1 V c 1 t) (ix2 p q) = biasRelu (V c main_v43) (V c main_v44) (((cfg1.win 2).blk t).view.emb (ix2 p q))
  refine (block_apply (iblk1 V c 0 t) (iblk1 V c 1 t) p q).trans ?_
  unfold biasRelu
  have h0 : iblk1 V c 0 t (ix2 p q) = V c main_v43 (((cfg1.win 2).blk t).view.emb (ix2 p q)) := by
    show V c main_v43 (((cfg1.win 0).blk t).view.emb (ix2 p q)) = _
    refine congrArg (V c main_v43) ?_
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * q.val = win1_2.index t (1 : Fin 2) * 16 + 1 * q.val; omega
  have h1 : iblk1 V c 1 t (ix2 (0 : Fin 1) q) = V c main_v44 (ix2 (0 : Fin 1) (⟨((((cfg1.win 2).blk t).view.emb (ix2 p q)) 1).val, ((((cfg1.win 2).blk t).view.emb (ix2 p q)) 1).isLt⟩ : Fin 16)) := by
    show V c main_v44 (((cfg1.win 1).blk t).view.emb (ix2 (0 : Fin 1) q)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  rw [h0, h1]

/-- An index of the result is in point `t`'s block iff each coordinate is in the block's range on its axis. -/
theorem mem_block (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Row `r` lies in the block of point `r / 10000`: the ten blocks cover the 100000 rows. -/
theorem covered (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The array the region leaves is the whole activation of the two arrays it found. -/
theorem result (c : Dev nD) :
    (dat1 V c).arrAt 2 cfg1.N = biasRelu (V c main_v43) (V c main_v44) :=
  (dat1 V c).arrAt_eq_of_cover 2 _ (fun t _ => flushed_eq V c t) (covered)

end Region

end Cert.KernelIdeal.Layer1Activation

end
-- ==== Proof.Layer2Product.lean ====
/-
  The second layer's product, H · W2 (100000 × 16 by 16 × 7), as the kernel computes it: ten grid points, point t taking
  rows 10000 t … 10000 t + 9999 of H whole (all 16 columns), W2 whole, and writing the same rows of the result. At the
  exact values the rounding of both factors to bf16 is the identity and the MXU product into a zero accumulator is the
  plain sum over the 16 columns, so row r of block t is row 10000 t + r of the one whole product
  ∑ k, H (i, k) · W2 (k, j) — which is what the host's dot_general of the same two arrays is, index by index. The
  blocks tile the 100000 rows, so the array the region leaves is that whole product.
-/
import proofs.«172935_j3332894622180_1_alg».proof.Proof.Gen.KernelIdeal.Frame
import proofs.«172935_j3332894622180_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Layer2Product

open Idealize.ShloMosaic Idealize.ShloMosaic.TcCoe Idealize.SL.Sem
open Idealize.ShloMosaic.Pipeline (Dat Cfg Window)
open Cert.KernelIdeal Cert.KernelIdeal.Gen
open Cert.ReferenceIdeal.ReadP (lidx_main_v48 ridx_main_v48 lhs_main_v48_0 lhs_main_v48_1 rhs_main_v48_0 rhs_main_v48_1)

theorem origin2 : (![0, 0] : Fin 2 → Nat) = fun _ => 0 := funext fun a => by fin_cases a <;> rfl

/-- The host's product of a 100000 × 16 array by a 16 × 7 array. -/
def hostProduct (h : S100000x16.Idx → EReal) (w : S16x7.Idx → EReal) : S100000x7.Idx → EReal :=
  Host.dotGeneral (F := Ideal) (φ₁ := .f32) (φ₂ := .f32) Cert.ReferenceIdeal.dot_S100000x16_S16x7_S100000x7_1_0_0_1_n_n none h w

/-- The host's product at an entry: the sum over the 16 columns. -/
theorem hostProduct_apply (h : S100000x16.Idx → EReal) (w : S16x7.Idx → EReal) (i : S100000x7.Idx) :
    hostProduct h w i = ∑ k : Fin 16, h (lidx_main_v48 i k) * w (ridx_main_v48 i k) := by
  unfold hostProduct
  simp only [Host.dotGeneral]
  rw [Ideal.dotGeneral_apply, ← Equiv.sum_comp (ValueIdx.contrEquiv1 Cert.ReferenceIdeal.dot_S100000x16_S16x7_S100000x7_1_0_0_1_n_n 16 rfl rfl).symm]
  refine Finset.sum_congr rfl fun k _ => ?_
  have hk := ValueIdx.contrEquiv1_symm_val Cert.ReferenceIdeal.dot_S100000x16_S16x7_S100000x7_1_0_0_1_n_n 16 rfl rfl k
  have el : (Cert.ReferenceIdeal.dot_S100000x16_S16x7_S100000x7_1_0_0_1_n_n).lhsIdx i ((ValueIdx.contrEquiv1 Cert.ReferenceIdeal.dot_S100000x16_S16x7_S100000x7_1_0_0_1_n_n 16 rfl rfl).symm k) = lidx_main_v48 i k := funext fun a => Fin.ext (by
    match a with
    | ⟨0, _⟩ => exact lhs_main_v48_0 _ _
    | ⟨1, _⟩ => exact (lhs_main_v48_1 _ _).trans hk)
  have er : (Cert.ReferenceIdeal.dot_S100000x16_S16x7_S100000x7_1_0_0_1_n_n).rhsIdx i ((ValueIdx.contrEquiv1 Cert.ReferenceIdeal.dot_S100000x16_S16x7_S100000x7_1_0_0_1_n_n 16 rfl rfl).symm k) = ridx_main_v48 i k := funext fun a => Fin.ext (by
    match a with
    | ⟨0, _⟩ => exact (rhs_main_v48_0 _ _).trans hk
    | ⟨1, _⟩ => exact rhs_main_v48_1 _ _)
  rw [el, er]

/-- Row `y 0`, column `k` of a 10000 × 16 block of H. -/
abbrev lrow (y : S10000x7.Idx) (k : Fin 16) : S10000x16.Idx := fun a => match a with
  | ⟨0, _⟩ => ⟨(y 0).val, (y 0).isLt⟩
  | ⟨1, _⟩ => ⟨k.val, k.isLt⟩
/-- Row `k`, column `y 1` of W2. -/
abbrev rcol (y : S10000x7.Idx) (k : Fin 16) : S16x7.Idx := fun a => match a with
  | ⟨0, _⟩ => ⟨k.val, k.isLt⟩
  | ⟨1, _⟩ => ⟨(y 1).val, (y 1).isLt⟩

/-- One block's product at an entry: the sum over the 16 columns of the block's row times W2's column. -/
theorem block_product_apply (x0 : Vec Ideal S10000x16 .f32) (x1 : Vec Ideal S16x7 .f32) (y : S10000x7.Idx) :
    k2_pay1 (F := Ideal) x0 x1 y = ∑ k : Fin 16, x0 (lrow y k) * x1 (rcol y k) := by
  unfold k2_pay1
  rw [shapeCast_self]
  refine (Ideal.matmul_constant_zero_apply dot_S10000x16_S16x7_S10000x7_1_0_0_1_n_n none _ _ y).trans ?_
  rw [← Equiv.sum_comp (ValueIdx.contrEquiv1 dot_S10000x16_S16x7_S10000x7_1_0_0_1_n_n 16 rfl rfl).symm]
  refine Finset.sum_congr rfl fun k _ => ?_
  have hk := ValueIdx.contrEquiv1_symm_val dot_S10000x16_S16x7_S10000x7_1_0_0_1_n_n 16 rfl rfl k
  have el : dot_S10000x16_S16x7_S10000x7_1_0_0_1_n_n.lhsIdx y ((ValueIdx.contrEquiv1 dot_S10000x16_S16x7_S10000x7_1_0_0_1_n_n 16 rfl rfl).symm k) = lrow y k := funext fun a => Fin.ext (by
    match a with
    | ⟨0, _⟩ =>
      show (dot_S10000x16_S16x7_S10000x7_1_0_0_1_n_n.lhsIdx y _ 0).val = (y 0).val
      unfold DotDims.lhsIdx
      rw [dif_neg (show ¬(0 : Fin S10000x16.rank) ∈ dot_S10000x16_S16x7_S10000x7_1_0_0_1_n_n.lhsBatch by decide), dif_pos (show (0 : Fin S10000x16.rank) ∈ dot_S10000x16_S16x7_S10000x7_1_0_0_1_n_n.lhsNonContracting by decide)]
      rfl
    | ⟨1, _⟩ => exact (dot_S10000x16_S16x7_S10000x7_1_0_0_1_n_n.lhsIdx_val_of_single rfl y _).trans hk)
  have er : dot_S10000x16_S16x7_S10000x7_1_0_0_1_n_n.rhsIdx y ((ValueIdx.contrEquiv1 dot_S10000x16_S16x7_S10000x7_1_0_0_1_n_n 16 rfl rfl).symm k) = rcol y k := funext fun a => Fin.ext (by
    match a with
    | ⟨0, _⟩ => exact (dot_S10000x16_S16x7_S10000x7_1_0_0_1_n_n.rhsIdx_val_of_single rfl y _).trans hk
    | ⟨1, _⟩ =>
      show (dot_S10000x16_S16x7_S10000x7_1_0_0_1_n_n.rhsIdx y _ 1).val = (y 1).val
      unfold DotDims.rhsIdx
      rw [dif_neg (show ¬(1 : Fin S16x7.rank) ∈ dot_S10000x16_S16x7_S10000x7_1_0_0_1_n_n.rhsBatch by decide), dif_pos (show (1 : Fin S16x7.rank) ∈ dot_S10000x16_S16x7_S10000x7_1_0_0_1_n_n.rhsNonContracting by decide)]
      rfl)
  rw [el, er]
  rfl

/-- The printed index maps over the ten points: H's and the result's blocks move together down the rows, every other
    block index is zero. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) < 10 :=
  (by decide +kernel : ∀ t : Fin grid2.N, _)

/-- Every block of rows is some point's. -/
theorem index_onto : ∀ q : Fin 10, ∃ t : Fin cfg2.N, win2_2.index t = ![q.val, 0] :=
  (by decide +kernel : ∀ q : Fin 10, ∃ t : Fin grid2.N, win2_2.index t = ![q.val, 0])

section Region
variable (V : (c : Dev nD) → (b : Ref sig .tc) → Buf (Elt Ideal) ((c : Thread nD τ).loc b))

/-- What point `t` writes back is block `t` of the whole product of the arrays the region finds. -/
theorem flushed_eq (c : Dev nD) (t : Fin cfg2.N) :
    (dat2 V c).flushed 2 t = ((cfg2.win 2).blk t).view.read (Elt Ideal) (hostProduct (V c main_v45) (V c main_arg4)) := by
  show (cfg2.win 2).cut (grid2.coords t) ((dat2 V c).after 2 t) = _
  rw [after2_2]
  unfold out2_2
  rw [View.canon_unit_zero origin2]
  simp only [View.ld_unit_zero (S := S10000x16) origin2, View.ld_unit_zero (S := S16x7) origin2]
  obtain ⟨e0, e1, e2, e3, e4, e5⟩ := index_facts t
  funext y
  show k2_pay1 (F := Ideal) (iblk2 V c 0 t) (iblk2 V c 1 t) y = hostProduct (V c main_v45) (V c main_arg4) (((cfg2.win 2).blk t).view.emb y)
  refine (block_product_apply (iblk2 V c 0 t) (iblk2 V c 1 t) y).trans ?_
  refine Eq.trans ?_ (hostProduct_apply (V c main_v45) (V c main_arg4) (((cfg2.win 2).blk t).view.emb y)).symm
  refine Finset.sum_congr rfl fun k _ => ?_
  have h0 : iblk2 V c 0 t (lrow y k) = V c main_v45 (lidx_main_v48 (((cfg2.win 2).blk t).view.emb y) k) := by
    show V c main_v45 (((cfg2.win 0).blk t).view.emb (lrow y k)) = _
    refine congrArg (V c main_v45) ?_
    funext a; apply Fin.ext
    match a with
    | ⟨0, _⟩ => show win2_0.index t (0 : Fin 2) * 10000 + 1 * (y 0).val = win2_2.index t (0 : Fin 2) * 10000 + 1 * (y 0).val; omega
    | ⟨1, _⟩ => show win2_0.index t (1 : Fin 2) * 16 + 1 * k.val = k.val; omega
  have h1 : iblk2 V c 1 t (rcol y k) = V c main_arg4 (ridx_main_v48 (((cfg2.win 2).blk t).view.emb y) k) := by
    show V c main_arg4 (((cfg2.win 1).blk t).view.emb (rcol y k)) = _
    refine congrArg (V c main_arg4) ?_
    funext a; apply Fin.ext
    match a with
    | ⟨0, _⟩ => show win2_1.index t (0 : Fin 2) * 16 + 1 * k.val = k.val; omega
    | ⟨1, _⟩ => show win2_1.index t (1 : Fin 2) * 7 + 1 * (y 1).val = win2_2.index t (1 : Fin 2) * 7 + 1 * (y 1).val; omega
  rw [h0, h1]

/-- An index of the result is in point `t`'s block iff each coordinate is in the block's range on its axis. -/
theorem mem_block (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v46).slice (win2_2.rect t)).set ↔ _
  rw [View.set_slice_whole, Rect.mem_set_unit]
  exact Iff.rfl

/-- Row `r` lies in the block of point `r / 10000`: the ten blocks cover the 100000 rows. -/
theorem covered (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 7 ≤ (i 1).val ∧ (i 1).val < win2_2.index t (1 : Fin 2) * 7 + 7; omega

/-- The array the region leaves is the whole product of the two arrays it found. -/
theorem result (c : Dev nD) :
    (dat2 V c).arrAt 2 cfg2.N = hostProduct (V c main_v45) (V c main_arg4) :=
  (dat2 V c).arrAt_eq_of_cover 2 _ (fun t _ => flushed_eq V c t) (covered)

end Region

end Cert.KernelIdeal.Layer2Product

end
-- ==== Proof.OutputLogSoftmax.lean ====
/-
  The output stage, log_softmax(max(A + b, 0)) along the seven classes, as the kernel computes it: ten grid points, point
  t taking rows 10000 t … 10000 t + 9999 of the aggregated logits A (100000 × 7) and the bias as one 1 × 7 row, and
  writing the same rows of the result. Row i of the result depends on row i of A and on the bias row only: with
  h k = max(A (i, k) + b (0, k), 0), M the maximum of the seven h k (taken from −∞) and z k = h k − M, entry (i, j) is
  z j − log (∑ k, exp (z k)). So each block is the restriction of one whole-array function, given row by row, and the
  ten blocks tile the 100000 rows.
-/
import proofs.«172935_j3332894622180_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.OutputLogSoftmax

open Idealize.ShloMosaic Idealize.ShloMosaic.TcCoe Idealize.SL.Sem Idealize.ShloMosaic.ValueIdx
open Idealize.ShloMosaic.Pipeline (Dat Cfg Window)
open Cert.KernelIdeal Cert.KernelIdeal.Gen

theorem origin2 : (![0, 0] : Fin 2 → Nat) = fun _ => 0 := funext fun a => by fin_cases a <;> rfl

/-- One row of the output stage from the row's seven logits `r` and the bias row `β`: activation, the maximum (from −∞),
    the shifted values, and the shifted value less the logarithm of the sum of their exponentials. -/
def rowStage (r β : Fin 7 → EReal) (q : Fin 7) : EReal :=
  (max (r q + β q) (Scalar.ofBits (F := Ideal) .f32 0x00000000#32)
      - (Finset.univ : Finset (Fin 7)).fold max (FloatOps.ofBits (F := Ideal) .f32 0xFF800000#32) (fun k => max (r k + β k) (Scalar.ofBits (F := Ideal) .f32 0x00000000#32)))
    - Ideal.log (∑ k : Fin 7, Ideal.exp (max (r k + β k) (Scalar.ofBits (F := Ideal) .f32 0x00000000#32)
      - (Finset.univ : Finset (Fin 7)).fold max (FloatOps.ofBits (F := Ideal) .f32 0xFF800000#32) (fun k => max (r k + β k) (Scalar.ofBits (F := Ideal) .f32 0x00000000#32))))

/-- The whole output array: row `i 0` of the stage, at column `i 1`. -/
def logSoftmaxAct (a : S100000x7.Idx → EReal) (b : S1x7.Idx → EReal) : S100000x7.Idx → EReal :=
  fun i => rowStage (fun k => a (ix2 (⟨(i 0).val, (i 0).isLt⟩ : Fin 100000) k)) (fun k => b (ix2 (0 : Fin 1) k)) (⟨(i 1).val, (i 1).isLt⟩ : Fin 7)

/-- The reduced index `p` with column `k` put back is (p, k). -/
theorem lift_row (p : Fin 10000) (k : Fin (S10000x7.size 1)) :
    reduces_S10000x7_S10000.lift (ix1 p) k = ix2 p (⟨k.val, k.isLt⟩ : Fin 7) := by
  funext c; apply Fin.ext
  fin_cases c <;> rfl

/-- A row's maximum over the seven lanes, from −∞. -/
theorem rowMax_apply (v : FVec Ideal S10000x7 .f32) (hφ : FKind.Formats .f32)
    (hacc : (0xFF800000#32 : BitVec FTy.f32.bits) = FKind.maximumf.neutral .f32 hφ) (p : Fin 10000) :
    multiReduction .maximumf [1] S10000 v 0xFF800000#32 reduces_S10000x7_S10000 hφ hacc (ix1 p)
      = (Finset.univ : Finset (Fin 7)).fold max (FloatOps.ofBits (F := Ideal) .f32 0xFF800000#32) (fun k => v (ix2 p k)) := by
  refine (Ideal.multiReduction_maximumf_single v _ reduces_S10000x7_S10000 hφ hacc (ix1 p)).trans ?_
  have hf : (v ∘ reduces_S10000x7_S10000.lift (ix1 p)) = fun k : Fin 7 => v (ix2 p k) := funext fun k => congrArg v (lift_row p k)
  exact congrArg (fun f => Finset.fold max (FloatOps.ofBits (F := Ideal) .f32 0xFF800000#32) f (Finset.univ : Finset (Fin 7))) hf

/-- A row's sum over the seven lanes. -/
theorem rowSum_apply (v : FVec Ideal S10000x7 .f32) (hφ : FKind.Formats .f32)
    (hacc : (0x00000000#32 : BitVec FTy.f32.bits) = FKind.add.neutral .f32 hφ) (p : Fin 10000) :
    multiReduction .add [1] S10000 v 0x00000000#32 reduces_S10000x7_S10000 hφ hacc (ix1 p) = ∑ k : Fin 7, v (ix2 p k) := by
  refine (Ideal.multiReduction_add_single v _ reduces_S10000x7_S10000 hφ hacc (ix1 p)).trans ?_
  exact Finset.sum_congr rfl fun k _ => congrArg v (lift_row p k)

/-- A per-row value kept as a 10000 × 1 column reads, at (p, 0), the value of row p. -/
theorem column_apply (w : FVec Ideal S10000 .f32) (p : Fin 10000) :
    shapeCast S10000x1 w shapeCasts_S10000_S10000x1 (ix2 p (0 : Fin 1)) = w (ix1 p) :=
  shapeCast_apply w shapeCasts_S10000_S10000x1 (ix2 p (0 : Fin 1)) (ix1 p) (by
    rw [Shape.rowMajor_val_two, Shape.rowMajor_val_one]
    show p.val = p.val * 1 + 0
    omega)

/-- A 10000 × 1 column broadcast along the seven lanes reads, at (p, q), the column at (p, 0). -/
theorem lanes_apply (u : FVec Ideal S10000x1 .f32) (p : Fin 10000) (q : Fin 7) :
    broadcastTo S10000x7 u broadcasts_S10000x1_S10000x7 (ix2 p q) = u (ix2 p (0 : Fin 1)) := by
  refine broadcastTo_apply u broadcasts_S10000x1_S10000x7 (ix2 p q) (ix2 p (0 : Fin 1)) fun ax => ?_
  match ax with
  | ⟨0, _⟩ =>
    show p.val = if (10000 : ℕ) = 1 then 0 else p.val
    rw [if_neg (by decide)]
  | ⟨1, _⟩ =>
    show (0 : ℕ) = if (1 : ℕ) = 1 then 0 else q.val
    rw [if_pos rfl]

/-- The activation of a block at an entry. -/
theorem act_apply (x0 : Vec Ideal S10000x7 .f32) (x1 : Vec Ideal S1x7 .f32) (p : Fin 10000) (k : Fin 7) :
    maximumf (addf (shapeCast S10000x7 x0 shapeCasts_S10000x7_S10000x7) (broadcastTo S10000x7 (shapeCast S1x7 x1 shapeCasts_S1x7_S1x7) broadcasts_S1x7_S10000x7))
        (broadcast S10000x7 (Scalar.ofBits (F := Ideal) .f32 0x00000000#32)) (ix2 p k)
      = max (x0 (ix2 p k) + x1 (ix2 (0 : Fin 1) k)) (Scalar.ofBits (F := Ideal) .f32 0x00000000#32) := by
  rw [maximumf_apply, addf_apply, shapeCast_self, shapeCast_self, broadcastTo_1b_ab_apply, broadcast_apply]

/-- A block's row maximum, of its activation. -/
theorem rowMax_act (x0 : Vec Ideal S10000x7 .f32) (x1 : Vec Ideal S1x7 .f32) (hφ : FKind.Formats .f32)
    (hacc : (0xFF800000#32 : BitVec FTy.f32.bits) = FKind.maximumf.neutral .f32 hφ) (p : Fin 10000) :
    multiReduction .maximumf [1] S10000
        (maximumf (addf (shapeCast S10000x7 x0 shapeCasts_S10000x7_S10000x7) (broadcastTo S10000x7 (shapeCast S1x7 x1 shapeCasts_S1x7_S1x7) broadcasts_S1x7_S10000x7))
          (broadcast S10000x7 (Scalar.ofBits (F := Ideal) .f32 0x00000000#32)))
        0xFF800000#32 reduces_S10000x7_S10000 hφ hacc (ix1 p)
      = (Finset.univ : Finset (Fin 7)).fold max (FloatOps.ofBits (F := Ideal) .f32 0xFF800000#32)
          (fun k => max (x0 (ix2 p k) + x1 (ix2 (0 : Fin 1) k)) (Scalar.ofBits (F := Ideal) .f32 0x00000000#32)) :=
  (rowMax_apply _ hφ hacc p).trans
    (congrArg (fun f => Finset.fold max (FloatOps.ofBits (F := Ideal) .f32 0xFF800000#32) f (Finset.univ : Finset (Fin 7))) (funext fun k => act_apply x0 x1 p k))

/-- One block's stored value at an entry is the row stage of the block's row and the bias row. -/
theorem block_apply (x0 : Vec Ideal S10000x7 .f32) (x1 : Vec Ideal S1x7 .f32) (p : Fin 10000) (q : Fin 7) :
    k3_pay1 (F := Ideal) x0 x1 (ix2 p q) = rowStage (fun k => x0 (ix2 p k)) (fun k => x1 (ix2 (0 : Fin 1) k)) q := by
  unfold k3_pay1 rowStage
  rw [subf_apply, subf_apply, lanes_apply, lanes_apply]
  show (_ - shapeCast S10000x1 _ shapeCasts_S10000_S10000x1 (ix2 p (0 : Fin 1))) - FloatOps.log (shapeCast S10000x1 _ shapeCasts_S10000_S10000x1 (ix2 p (0 : Fin 1))) = _
  rw [column_apply, column_apply]
  refine congrArg₂ (· - ·) (congrArg₂ (· - ·) (act_apply x0 x1 p q) (rowMax_act x0 x1 _ _ p)) ?_
  show Ideal.log _ = Ideal.log _
  refine congrArg Ideal.log ((rowSum_apply _ _ _ p).trans (Finset.sum_congr rfl fun k _ => ?_))
  show Ideal.exp _ = Ideal.exp _
  refine congrArg Ideal.exp ?_
  refine (subf_apply _ _ _).trans (congrArg₂ (· - ·) (act_apply x0 x1 p k) ?_)
  exact (lanes_apply _ p k).trans ((column_apply _ p).trans (rowMax_act x0 x1 _ _ p))

/-- The printed index maps over the ten points: the input's and the result's blocks move together down the rows, the
    bias row's block index is zero, and so is the column-block index. -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) < 10 :=
  (by decide +kernel : ∀ t : Fin grid3.N, _)

/-- Every block of rows is some point's. -/
theorem index_onto : ∀ q : Fin 10, ∃ t : Fin cfg3.N, win3_2.index t = ![q.val, 0] :=
  (by decide +kernel : ∀ q : Fin 10, ∃ t : Fin grid3.N, win3_2.index t = ![q.val, 0])

section Region
variable (V : (c : Dev nD) → (b : Ref sig .tc) → Buf (Elt Ideal) ((c : Thread nD τ).loc b))

/-- What point `t` writes back is block `t` of the whole output stage of the arrays the region finds. -/
theorem flushed_eq (c : Dev nD) (t : Fin cfg3.N) :
    (dat3 V c).flushed 2 t = ((cfg3.win 2).blk t).view.read (Elt Ideal) (logSoftmaxAct (V c main_v58) (V c main_v59)) := by
  show (cfg3.win 2).cut (grid3.coords t) ((dat3 V c).after 2 t) = _
  rw [after3_2]
  unfold out3_2
  rw [View.canon_unit_zero origin2]
  simp only [View.ld_unit_zero (S := S10000x7) origin2, View.ld_unit_zero (S := S1x7) origin2]
  obtain ⟨e0, e1, e2, e3, e4, e5⟩ := index_facts t
  funext y
  obtain ⟨p, q, rfl⟩ : ∃ (p : Fin 10000) (q : Fin 7), y = ix2 p q := ⟨y 0, y 1, eq_ix2 y⟩
  show k3_pay1 (F := Ideal) (iblk3 V c 0 t) (iblk3 V c 1 t) (ix2 p q) = logSoftmaxAct (V c main_v58) (V c main_v59) (((cfg3.win 2).blk t).view.emb (ix2 p q))
  refine (block_apply (iblk3 V c 0 t) (iblk3 V c 1 t) p q).trans ?_
  unfold logSoftmaxAct
  have hr : (fun k : Fin 7 => iblk3 V c 0 t (ix2 p k)) = fun k : Fin 7 => V c main_v58 (ix2 (⟨((((cfg3.win 2).blk t).view.emb (ix2 p q)) 0).val, ((((cfg3.win 2).blk t).view.emb (ix2 p q)) 0).isLt⟩ : Fin 100000) k) := by
    funext k
    show V c main_v58 (((cfg3.win 0).blk t).view.emb (ix2 p k)) = _
    refine congrArg (V c main_v58) ?_
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 7 + 1 * k.val = k.val; omega
  have hb : (fun k : Fin 7 => iblk3 V c 1 t (ix2 (0 : Fin 1) k)) = fun k : Fin 7 => V c main_v59 (ix2 (0 : Fin 1) k) := by
    funext k
    show V c main_v59 (((cfg3.win 1).blk t).view.emb (ix2 (0 : Fin 1) k)) = _
    refine congrArg (V c main_v59) ?_
    funext a; apply Fin.ext
    match a with
    | ⟨0, _⟩ => show win3_1.index t (0 : Fin 2) * 1 + 1 * 0 = 0; omega
    | ⟨1, _⟩ => show win3_1.index t (1 : Fin 2) * 7 + 1 * k.val = k.val; omega
  have hq : q = (⟨((((cfg3.win 2).blk t).view.emb (ix2 p q)) 1).val, ((((cfg3.win 2).blk t).view.emb (ix2 p q)) 1).isLt⟩ : Fin 7) := by
    apply Fin.ext
    show q.val = win3_2.index t (1 : Fin 2) * 7 + 1 * q.val
    omega
  rw [hr, hb]
  exact congrArg _ hq

/-- An index of the result is in point `t`'s block iff each coordinate is in the block's range on its axis. -/
theorem mem_block (t : Fin cfg3.N) (i : S100000x7.Idx) :
    i ∈ ((cfg3.win 2).blk t).view.set ↔ ∀ a : Fin 2, win3_2.index t a * S10000x7.size a ≤ (i a).val ∧ (i a).val < win3_2.index t a * S10000x7.size a + S10000x7.size a := by
  show i ∈ ((View.whole main_v60).slice (win3_2.rect t)).set ↔ _
  rw [View.set_slice_whole, Rect.mem_set_unit]
  exact Iff.rfl

/-- Row `r` lies in the block of point `r / 10000`: the ten blocks cover the 100000 rows. -/
theorem covered (i : S100000x7.Idx) :
    ∃ t : Fin cfg3.N, (cfg3.win 2).flush t = true ∧ i ∈ ((cfg3.win 2).blk t).view.set := by
  have hi0 : (i 0).val < 100000 := (i 0).isLt
  have hi1 : (i 1).val < 7 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 7 ≤ (i 1).val ∧ (i 1).val < win3_2.index t (1 : Fin 2) * 7 + 7; omega

/-- The array the region leaves is the whole output stage of the two arrays it found. -/
theorem result (c : Dev nD) :
    (dat3 V c).arrAt 2 cfg3.N = logSoftmaxAct (V c main_v58) (V c main_v59) :=
  (dat3 V c).arrAt_eq_of_cover 2 _ (fun t _ => flushed_eq V c t) (covered)

end Region

end Cert.KernelIdeal.OutputLogSoftmax

end
-- ==== Proof.RefStages.lean ====
/-
  The reference's three pointwise stages, read row by row, as the same functions the kernel's regions compute.
  Its first activation relu(A + b1) is, entry by entry, max(A (i, j) + b1 (j), 0); its second product is the host's product
  of the activated features by W2; and its output stage log_softmax(relu(A + b2)) is, on row i, with h k = max(A (i, k) +
  b2 (k), 0) and M the maximum of the seven h k, the value (h j − M) − log (∑ k, exp (h k − M)): jax takes the row
  maximum from −∞ and joins it with −∞ once more (a no-op), subtracts it, and subtracts the logarithm of the row's sum
  of exponentials, which the host's sum takes from zero. The bias rows reach the kernel reshaped to 1 × 16 and 1 × 7.
-/
import proofs.«172935_j3332894622180_1_alg».proof.Proof.RefRead
import proofs.«172935_j3332894622180_1_alg».proof.Proof.Layer1Activation
import proofs.«172935_j3332894622180_1_alg».proof.Proof.Layer2Product
import proofs.«172935_j3332894622180_1_alg».proof.Proof.OutputLogSoftmax
import Idealize.ShloMosaic.Lib.ValueLayout

set_option maxRecDepth 16384

noncomputable section

namespace Cert.ReferenceIdeal.Stages

open Idealize.ShloMosaic Idealize.ShloMosaic.TcCoe Idealize.ShloMosaic.ValueIdx
open Cert.ReferenceIdeal Cert.ReferenceIdeal.Gen Cert.ReferenceIdeal.ReadP

variable (x0 : (⟨S100000x1433, .f32⟩ : BufTy).Contents (Elt Ideal)) (x1 : (⟨S2x3200000, .i32⟩ : BufTy).Contents (Elt Ideal))
  (x2 : (⟨S1433x16, .f32⟩ : BufTy).Contents (Elt Ideal)) (x3 : (⟨S16, .f32⟩ : BufTy).Contents (Elt Ideal))
  (x4 : (⟨S16x7, .f32⟩ : BufTy).Contents (Elt Ideal)) (x5 : (⟨S7, .f32⟩ : BufTy).Contents (Elt Ideal))

/-- −∞ joined with anything is that thing. -/
theorem max_neg_inf (y : EReal) : max (FloatOps.ofBits (F := Ideal) .f32 0xFF800000#32) y = y := by
  show max (Ideal.ofBits .f32 0xFF800000#32) y = y
  simp [Ideal.ofBits, Ideal.ieee]

/-! ## The first activation -/

theorem act1_apply (p : Fin 100000) (q : Fin 16) :
    val_main_v47 (F := Ideal) x0 x1 x2 x3 (ix2 p q)
      = max (val_main_v43 (F := Ideal) x0 x1 x2 (ix2 p q) + x3 (ix1 q)) (FloatOps.ofBits (F := Ideal) .f32 0x00000000#32) := by
  rw [val_main_v47_apply, val_main_v46_apply, val_main_v45_apply, val_main_v44_apply, val_main_call1_v0_apply, val_main_call1_cst_apply]
  have e : idx_main_v44 (idx_main_v45 (ix2 p q)) = ix1 q := funext fun a => Fin.ext (by match a with | ⟨0, _⟩ => rfl)
  rw [e]
  rfl

/-- The reference's first activation is the kernel's, of the aggregated features and the bias as a 1 × 16 row. -/
theorem act1_eq :
    val_main_v47 (F := Ideal) x0 x1 x2 x3
      = Cert.KernelIdeal.Layer1Activation.biasRelu (val_main_v43 (F := Ideal) x0 x1 x2)
          (shapeCast Cert.KernelIdeal.S1x16 x3 Cert.KernelIdeal.Gen.shapeCasts_S16_S1x16) := by
  funext i
  obtain ⟨p, q, rfl⟩ : ∃ (p : Fin 100000) (q : Fin 16), i = ix2 p q := ⟨i 0, i 1, eq_ix2 i⟩
  rw [act1_apply]
  unfold Cert.KernelIdeal.Layer1Activation.biasRelu
  have hb : shapeCast Cert.KernelIdeal.S1x16 x3 Cert.KernelIdeal.Gen.shapeCasts_S16_S1x16 (ix2 (0 : Fin 1) q) = x3 (ix1 q) :=
    shapeCast_a_1a_apply x3 Cert.KernelIdeal.Gen.shapeCasts_S16_S1x16 (0 : Fin 1) q
  exact congrArg (fun t => max (val_main_v43 (F := Ideal) x0 x1 x2 (ix2 p q) + t) (FloatOps.ofBits (F := Ideal) .f32 0x00000000#32)) hb.symm

/-! ## The second product -/

theorem product2_eq :
    val_main_v48 (F := Ideal) x0 x1 x2 x3 x4 = Cert.KernelIdeal.Layer2Product.hostProduct (val_main_v47 (F := Ideal) x0 x1 x2 x3) x4 := by
  unfold val_main_v48 Cert.KernelIdeal.Layer2Product.hostProduct
  rfl

/-! ## The output stage -/

theorem act2_apply (p : Fin 100000) (k : Fin 7) :
    val_main_v80 (F := Ideal) x0 x1 x2 x3 x4 x5 (ix2 p k)
      = max (val_main_v76 (F := Ideal) x0 x1 x2 x3 x4 (ix2 p k) + x5 (ix1 k)) (FloatOps.ofBits (F := Ideal) .f32 0x00000000#32) := by
  rw [val_main_v80_apply, val_main_v79_apply, val_main_v78_apply, val_main_v77_apply, val_main_call2_v0_apply, val_main_call2_cst_apply]
  have e : idx_main_v77 (idx_main_v78 (ix2 p k)) = ix1 k := funext fun a => Fin.ext (by match a with | ⟨0, _⟩ => rfl)
  rw [e]
  rfl

/-- The reduced index `p` with column `k` put back is (p, k). -/
theorem lift_row (h : S100000x7.Reduces [1] S100000) (p : Fin 100000) (k : Fin (S100000x7.size 1)) :
    h.lift (ix1 p) k = ix2 p (⟨k.val, k.isLt⟩ : Fin 7) := by
  funext c; apply Fin.ext
  fin_cases c <;> rfl

/-- The host's maximum over the seven classes, from −∞, of any 100000 × 7 array, at row `p`. -/
theorem hostRowMax (y : FVec Ideal S100000x7 .f32) (p : Fin 100000) :
    Host.reduce FloatOps.maximumf y (constant (F := Ideal) S_ .f32 0xFF800000#32) reducesTo_S100000x7_S100000_d1 h_S_ (ix1 p)
      = (Finset.univ : Finset (Fin 7)).fold max (FloatOps.ofBits (F := Ideal) .f32 0xFF800000#32) (fun k => y (ix2 p k)) := by
  have hr : S100000x7.Reduces [1] S100000 := by decide
  rw [Host.reduce_eq_fold_single FloatOps.maximumf y _ reducesTo_S100000x7_S100000_d1 hr h_S_]
  have hf : (y ∘ hr.lift (ix1 p)) = fun k : Fin 7 => y (ix2 p k) := funext fun k => congrArg y (lift_row hr p k)
  exact congrArg (fun f => Finset.fold max (FloatOps.ofBits (F := Ideal) .f32 0xFF800000#32) f (Finset.univ : Finset (Fin 7))) hf

/-- The row maximum the reference subtracts. -/
theorem rowMax_apply (p : Fin 100000) :
    val_main_call3_v2 (F := Ideal) x0 x1 x2 x3 x4 x5 (ix1 p)
      = (Finset.univ : Finset (Fin 7)).fold max (FloatOps.ofBits (F := Ideal) .f32 0xFF800000#32)
          (fun k => val_main_v80 (F := Ideal) x0 x1 x2 x3 x4 x5 (ix2 p k)) := by
  rw [val_main_call3_v2_apply, val_main_call3_v1_apply, val_main_call3_cst_0_apply]
  refine (max_neg_inf _).trans ?_
  unfold val_main_call3_v0 val_main_call3_cst
  exact hostRowMax _ p

theorem shifted_apply (p : Fin 100000) (k : Fin 7) :
    val_main_call3_v5 (F := Ideal) x0 x1 x2 x3 x4 x5 (ix2 p k)
      = val_main_v80 (F := Ideal) x0 x1 x2 x3 x4 x5 (ix2 p k) - val_main_call3_v2 (F := Ideal) x0 x1 x2 x3 x4 x5 (ix1 p) := by
  rw [val_main_call3_v5_apply, val_main_call3_v4_apply, val_main_call3_v3_apply]
  have e : idx_main_call3_v3 (idx_main_call3_v4 (ix2 p k)) = ix1 p := funext fun a => Fin.ext (by match a with | ⟨0, _⟩ => rfl)
  rw [e]
  rfl

theorem rowSum_apply (p : Fin 100000) :
    val_main_call3_v7 (F := Ideal) x0 x1 x2 x3 x4 x5 (ix1 p)
      = ∑ k : Fin 7, Ideal.exp (val_main_call3_v5 (F := Ideal) x0 x1 x2 x3 x4 x5 (ix2 p k)) := by
  rw [val_main_call3_v7_apply, val_main_call3_cst_1_apply]
  show Ideal.ofBits .f32 0x00000000#32 + _ = _
  rw [Ideal.ofBits_zero_f32, zero_add]
  refine Finset.sum_congr rfl fun k _ => ?_
  have e : idx_main_call3_v7 (ix1 p) k = ix2 p k := funext fun a => Fin.ext (by match a with | ⟨0, _⟩ => rfl | ⟨1, _⟩ => rfl)
  rw [e, val_main_call3_v6_apply, Ideal.hostUnary_exp_def]

theorem out_apply (p : Fin 100000) (q : Fin 7) :
    val_main_v81 (F := Ideal) x0 x1 x2 x3 x4 x5 (ix2 p q)
      = val_main_call3_v5 (F := Ideal) x0 x1 x2 x3 x4 x5 (ix2 p q) - Ideal.log (val_main_call3_v7 (F := Ideal) x0 x1 x2 x3 x4 x5 (ix1 p)) := by
  rw [val_main_v81_apply, val_main_call3_v10_apply, val_main_call3_v9_apply, val_main_call3_v8_apply]
  have e : idx_main_call3_v8 (idx_main_call3_v10 (ix2 p q)) = ix1 p := funext fun a => Fin.ext (by match a with | ⟨0, _⟩ => rfl)
  rw [e, Ideal.hostUnary_log_def, Ideal.subf_def]

/-- The reference's output stage is the kernel's, of the aggregated logits and the bias as a 1 × 7 row. -/
theorem out_eq :
    val_main_v81 (F := Ideal) x0 x1 x2 x3 x4 x5
      = Cert.KernelIdeal.OutputLogSoftmax.logSoftmaxAct (val_main_v76 (F := Ideal) x0 x1 x2 x3 x4)
          (shapeCast Cert.KernelIdeal.S1x7 x5 Cert.KernelIdeal.Gen.shapeCasts_S7_S1x7) := by
  funext i
  obtain ⟨p, q, rfl⟩ : ∃ (p : Fin 100000) (q : Fin 7), i = ix2 p q := ⟨i 0, i 1, eq_ix2 i⟩
  have hb : ∀ k : Fin 7, shapeCast Cert.KernelIdeal.S1x7 x5 Cert.KernelIdeal.Gen.shapeCasts_S7_S1x7 (ix2 (0 : Fin 1) k) = x5 (ix1 k) :=
    fun k => shapeCast_a_1a_apply x5 Cert.KernelIdeal.Gen.shapeCasts_S7_S1x7 (0 : Fin 1) k
  rw [out_apply, rowSum_apply, shifted_apply, rowMax_apply]
  simp only [shifted_apply, rowMax_apply, act2_apply]
  unfold Cert.KernelIdeal.OutputLogSoftmax.logSoftmaxAct Cert.KernelIdeal.OutputLogSoftmax.rowStage
  simp only [hb]

end Cert.ReferenceIdeal.Stages

end
-- ==== Proof.Layer1Product.lean ====
/-
  The first layer's product, X · W1 (100000 × 1433 by 1433 × 16), as the kernel computes it: fifty grid points, point t
  taking rows 2000 t … 2000 t + 1999 of X whole (all 1433 columns), W1 whole, and writing rows 2000 t … of the
  result. At the exact values the rounding of both factors to bf16 is the identity and the MXU product into a zero
  accumulator is the plain sum over the 1433 columns, so row r of block t is row 2000 t + r of the one whole product
  ∑ k, X (i, k) · W1 (k, j) — which is what the reference's dot_general is, index by index. The blocks tile the
  100000 rows (100000 = 50 · 2000), so the array the region leaves is that whole product.
-/
import proofs.«172935_j3332894622180_1_alg».proof.Proof.Gen.KernelIdeal.Frame
import proofs.«172935_j3332894622180_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Layer1Product

open Idealize.ShloMosaic Idealize.ShloMosaic.TcCoe Idealize.SL.Sem
open Idealize.ShloMosaic.Pipeline (Dat Cfg Window)
open Cert.KernelIdeal Cert.KernelIdeal.Gen
open Cert.ReferenceIdeal.ReadP (val_main_v15 val_main_v15_apply lidx_main_v15 ridx_main_v15)

theorem origin2 : (![0, 0] : Fin 2 → Nat) = fun _ => 0 := funext fun a => by fin_cases a <;> rfl

/-- Row `y 0`, column `k` of a 2000 × 1433 block of X. -/
abbrev lrow (y : S2000x16.Idx) (k : Fin 1433) : S2000x1433.Idx := fun a => match a with
  | ⟨0, _⟩ => ⟨(y 0).val, (y 0).isLt⟩
  | ⟨1, _⟩ => ⟨k.val, k.isLt⟩
/-- Row `k`, column `y 1` of W1. -/
abbrev rcol (y : S2000x16.Idx) (k : Fin 1433) : S1433x16.Idx := fun a => match a with
  | ⟨0, _⟩ => ⟨k.val, k.isLt⟩
  | ⟨1, _⟩ => ⟨(y 1).val, (y 1).isLt⟩

/-- One block's product at an entry: the sum over the 1433 columns of the block's row times W1's column (the
    conversions to bf16 are the identity at the exact values, and the accumulator is zero). -/
theorem block_product_apply (x0 : Vec Ideal S2000x1433 .f32) (x1 : Vec Ideal S1433x16 .f32) (y : S2000x16.Idx) :
    k0_pay1 (F := Ideal) x0 x1 y = ∑ k : Fin 1433, x0 (lrow y k) * x1 (rcol y k) := by
  unfold k0_pay1
  refine (Ideal.matmul_constant_zero_apply dot_S2000x1433_S1433x16_S2000x16_1_0_0_1_n_n none _ _ y).trans ?_
  rw [← Equiv.sum_comp (ValueIdx.contrEquiv1 dot_S2000x1433_S1433x16_S2000x16_1_0_0_1_n_n 1433 rfl rfl).symm]
  refine Finset.sum_congr rfl fun k _ => ?_
  have hk := ValueIdx.contrEquiv1_symm_val dot_S2000x1433_S1433x16_S2000x16_1_0_0_1_n_n 1433 rfl rfl k
  have el : dot_S2000x1433_S1433x16_S2000x16_1_0_0_1_n_n.lhsIdx y ((ValueIdx.contrEquiv1 dot_S2000x1433_S1433x16_S2000x16_1_0_0_1_n_n 1433 rfl rfl).symm k) = lrow y k := funext fun a => Fin.ext (by
    match a with
    | ⟨0, _⟩ =>
      show (dot_S2000x1433_S1433x16_S2000x16_1_0_0_1_n_n.lhsIdx y _ 0).val = (y 0).val
      unfold DotDims.lhsIdx
      rw [dif_neg (show ¬(0 : Fin S2000x1433.rank) ∈ dot_S2000x1433_S1433x16_S2000x16_1_0_0_1_n_n.lhsBatch by decide), dif_pos (show (0 : Fin S2000x1433.rank) ∈ dot_S2000x1433_S1433x16_S2000x16_1_0_0_1_n_n.lhsNonContracting by decide)]
      rfl
    | ⟨1, _⟩ => exact (dot_S2000x1433_S1433x16_S2000x16_1_0_0_1_n_n.lhsIdx_val_of_single rfl y _).trans hk)
  have er : dot_S2000x1433_S1433x16_S2000x16_1_0_0_1_n_n.rhsIdx y ((ValueIdx.contrEquiv1 dot_S2000x1433_S1433x16_S2000x16_1_0_0_1_n_n 1433 rfl rfl).symm k) = rcol y k := funext fun a => Fin.ext (by
    match a with
    | ⟨0, _⟩ => exact (dot_S2000x1433_S1433x16_S2000x16_1_0_0_1_n_n.rhsIdx_val_of_single rfl y _).trans hk
    | ⟨1, _⟩ =>
      show (dot_S2000x1433_S1433x16_S2000x16_1_0_0_1_n_n.rhsIdx y _ 1).val = (y 1).val
      unfold DotDims.rhsIdx
      rw [dif_neg (show ¬(1 : Fin S1433x16.rank) ∈ dot_S2000x1433_S1433x16_S2000x16_1_0_0_1_n_n.rhsBatch by decide), dif_pos (show (1 : Fin S1433x16.rank) ∈ dot_S2000x1433_S1433x16_S2000x16_1_0_0_1_n_n.rhsNonContracting by decide)]
      rfl)
  rw [el, er]
  rfl

/-- The printed index maps over the fifty points: X's and the result's blocks move together down the rows, every other
    block index is zero, and the result's row-block index is the point's number. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) < 50 :=
  (by decide +kernel : ∀ t : Fin grid0.N, _)

/-- Every block of rows is some point's. -/
theorem index_onto : ∀ q : Fin 50, ∃ t : Fin cfg0.N, win0_2.index t = ![q.val, 0] :=
  (by decide +kernel : ∀ q : Fin 50, ∃ t : Fin grid0.N, win0_2.index t = ![q.val, 0])

section Region
variable (V : (c : Dev nD) → (b : Ref sig .tc) → Buf (Elt Ideal) ((c : Thread nD τ).loc b))

/-- What point `t` writes back is block `t` of the whole product of the arrays the region finds. -/
theorem flushed_eq (c : Dev nD) (t : Fin cfg0.N) :
    (dat0 V c).flushed 2 t = ((cfg0.win 2).blk t).view.read (Elt Ideal) (val_main_v15 (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S2000x1433) origin2, View.ld_unit_zero (S := S1433x16) origin2]
  obtain ⟨e0, e1, e2, e3, e4, e5⟩ := index_facts t
  funext y
  show k0_pay1 (F := Ideal) (iblk0 V c 0 t) (iblk0 V c 1 t) y = val_main_v15 (F := Ideal) (V c main_arg0) (V c main_arg2) (((cfg0.win 2).blk t).view.emb y)
  refine (block_product_apply (iblk0 V c 0 t) (iblk0 V c 1 t) y).trans ?_
  refine Eq.trans ?_ (val_main_v15_apply (V c main_arg0) (V c main_arg2) (((cfg0.win 2).blk t).view.emb y)).symm
  refine Finset.sum_congr rfl fun k _ => ?_
  have h0 : iblk0 V c 0 t (lrow y k) = V c main_arg0 (lidx_main_v15 (((cfg0.win 2).blk t).view.emb y) k) := by
    show V c main_arg0 (((cfg0.win 0).blk t).view.emb (lrow y k)) = _
    refine congrArg (V c main_arg0) ?_
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 1433 + 1 * k.val = k.val; omega
  have h1 : iblk0 V c 1 t (rcol y k) = V c main_arg2 (ridx_main_v15 (((cfg0.win 2).blk t).view.emb y) k) := by
    show V c main_arg2 (((cfg0.win 1).blk t).view.emb (rcol y k)) = _
    refine congrArg (V c main_arg2) ?_
    funext a; apply Fin.ext
    match a with
    | ⟨0, _⟩ => show win0_1.index t (0 : Fin 2) * 1433 + 1 * k.val = k.val; omega
    | ⟨1, _⟩ => show win0_1.index t (1 : Fin 2) * 16 + 1 * (y 1).val = win0_2.index t (1 : Fin 2) * 16 + 1 * (y 1).val; omega
  rw [h0, h1]

/-- An index of the result is in point `t`'s block iff each coordinate is in the block's range on its axis. -/
theorem mem_block (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v31).slice (win0_2.rect t)).set ↔ _
  rw [View.set_slice_whole, Rect.mem_set_unit]
  exact Iff.rfl

/-- Row `r` lies in the block of point `r / 2000`: the fifty blocks cover the 100000 rows. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := index_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- The array the first region leaves is the whole product of the two arrays it found. -/
theorem result (c : Dev nD) :
    (dat0 V c).arrAt 2 cfg0.N = val_main_v15 (F := Ideal) (V c main_arg0) (V c main_arg2) :=
  (dat0 V c).arrAt_eq_of_cover 2 _ (fun t _ => flushed_eq V c t) (covered)

end Region

end Cert.KernelIdeal.Layer1Product

end
-- ==== Proof.Fold.lean ====
/-
  The kernel's buffer contents, segment by segment, read at the buffers the next segment needs, as the reference's own
  stages of the six arguments. The program computes the edge lists with self-loops, the degrees and the per-edge
  coefficient once (host); the first product X · W1 (region); gathers, scales and scatter-adds it along the edges and
  reshapes the bias (host); activates (region); multiplies by W2 (region); gathers, scales and scatter-adds again
  (host); and ends with the output stage (region). Every host stretch is the reference's own sequence of operations on
  the same operands, so its results are the reference's stages as soon as its operands are; every region's output
  array is the whole-array function proved for it, which is the reference's stage too. A stretch is read over ANY
  contents of the buffers it starts from, given what those contents are at the few buffers it reads.
-/
import proofs.«172935_j3332894622180_1_alg».proof.Proof.Gen.KernelIdeal.Frame
import proofs.«172935_j3332894622180_1_alg».proof.Proof.RefRead
import proofs.«172935_j3332894622180_1_alg».proof.Proof.RefStages
import proofs.«172935_j3332894622180_1_alg».proof.Proof.Layer1Product
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.ReadP

/-! ## The host stretches, over any starting contents -/

section Stretches
variable (Wv : Valuation τ sig (Elt Ideal))
variable (x0 : (⟨S100000x1433, .f32⟩ : BufTy).Contents (Elt Ideal)) (x1 : (⟨S2x3200000, .i32⟩ : BufTy).Contents (Elt Ideal)) (x2 : (⟨S1433x16, .f32⟩ : BufTy).Contents (Elt Ideal))
  (x3 : (⟨S16, .f32⟩ : BufTy).Contents (Elt Ideal)) (x4 : (⟨S16x7, .f32⟩ : BufTy).Contents (Elt Ideal)) (x5 : (⟨S7, .f32⟩ : BufTy).Contents (Elt Ideal))

set_option maxHeartbeats 16000000 in
/-- The first stretch: source and destination lists with self-loops, the degree test, the inverse square roots. -/
theorem stretch0 (h1 : Wv (Proc.devRef .tc main_arg1) = x1) :
    StableHlo.after (hostOps0 (F := Ideal)) Wv (Proc.devRef .tc main_v3) = val_main_v3 (F := Ideal) x1
    ∧ StableHlo.after (hostOps0 (F := Ideal)) Wv (Proc.devRef .tc main_v6) = val_main_v6 (F := Ideal) x1
    ∧ StableHlo.after (hostOps0 (F := Ideal)) Wv (Proc.devRef .tc main_v12) = val_main_v12 (F := Ideal) x1
    ∧ StableHlo.after (hostOps0 (F := Ideal)) Wv (Proc.devRef .tc main_v13) = val_main_v13 (F := Ideal) x1
    ∧ StableHlo.after (hostOps0 (F := Ideal)) Wv (Proc.devRef .tc main_cst_2) = val_main_cst_2 (F := Ideal) := by
  subst h1
  unfold hostOps0
  refine ⟨?_, ?_, ?_, ?_, ?_⟩
  · after_results_simp
    simp only [val_main_v3, val_main_v2, val_main_v1, val_main_v0]
    rfl
  · after_results_simp
    simp only [val_main_v6, val_main_v5, val_main_v4, val_main_v0]
    rfl
  · after_results_simp
    simp only [val_main_v12, val_main_v10, val_main_v8, val_main_cst_0, val_main_v9, val_main_v6, val_main_v5, val_main_v4, val_main_v0, val_main_v7, val_main_cst, val_main_v11, val_main_cst_1]
    rfl
  · after_results_simp
    simp only [val_main_v13, val_main_v10, val_main_v8, val_main_cst_0, val_main_v9, val_main_v6, val_main_v5, val_main_v4, val_main_v0, val_main_v7, val_main_cst]
    rfl
  · after_results_simp
    rfl

set_option maxHeartbeats 16000000 in
/-- It writes no argument. -/
theorem stretch0_keeps (b : Ref sig .tc) (hb : b = main_arg0 ∨ b = main_arg2 ∨ b = main_arg3 ∨ b = main_arg4 ∨ b = main_arg5) :
    StableHlo.after (hostOps0 (F := Ideal)) Wv (Proc.devRef .tc b) = Wv (Proc.devRef .tc b) := by
  unfold hostOps0
  rcases hb with rfl | rfl | rfl | rfl | rfl <;> after_results_simp

set_option maxHeartbeats 16000000 in
/-- The second stretch: zero where the degree is not positive (the casts between a buffer's type and its value's are
    identities). -/
theorem stretch0_1 (h12 : Wv (Proc.devRef .tc main_v12) = val_main_v12 (F := Ideal) x1) (h13 : Wv (Proc.devRef .tc main_v13) = val_main_v13 (F := Ideal) x1)
    (hc : Wv (Proc.devRef .tc main_cst_2) = val_main_cst_2 (F := Ideal)) :
    StableHlo.after (hostOps0_1 (F := Ideal)) Wv (Proc.devRef .tc main_v14) = val_main_v14 (F := Ideal) x1 := by
  unfold hostOps0_1
  after_results_simp
  simp only [h12, h13, hc]
  unfold val_main_v14 val_main_call0_v1 val_main_call0_v0
  refine (cast_eq _ _).trans ?_
  refine congr (congr (congrArg select (cast_eq _ _)) (cast_eq _ _)) ?_
  refine (cast_eq _ _).trans ((cast_eq _ _).trans ?_)
  refine congrArg _ ?_
  exact (cast_eq _ _).trans ((cast_eq _ _).trans (congrArg id (cast_eq _ _)))

set_option maxHeartbeats 16000000 in
theorem stretch0_1_keeps (b : Ref sig .tc) (hb : b = main_v3 ∨ b = main_v6 ∨ b = main_arg0 ∨ b = main_arg2 ∨ b = main_arg3 ∨ b = main_arg4 ∨ b = main_arg5) :
    StableHlo.after (hostOps0_1 (F := Ideal)) Wv (Proc.devRef .tc b) = Wv (Proc.devRef .tc b) := by
  unfold hostOps0_1
  rcases hb with rfl | rfl | rfl | rfl | rfl | rfl | rfl <;> after_results_simp

set_option maxHeartbeats 16000000 in
/-- The third stretch: the per-edge coefficient, as a column. -/
theorem stretch0_2 (h3 : Wv (Proc.devRef .tc main_v3) = val_main_v3 (F := Ideal) x1) (h6 : Wv (Proc.devRef .tc main_v6) = val_main_v6 (F := Ideal) x1)
    (h14 : Wv (Proc.devRef .tc main_v14) = val_main_v14 (F := Ideal) x1) :
    StableHlo.after (hostOps0_2 (F := Ideal)) Wv (Proc.devRef .tc main_v30) = val_main_v38 (F := Ideal) x1 := by
  unfold hostOps0_2
  after_results_simp
  simp only [h3, h6, h14]
  simp only [val_main_v38, val_main_v30, val_main_v22, val_main_v21, val_main_v20, val_main_v17, val_main_v16, val_main_c, val_main_v19, val_main_v18, val_main_c_3, val_main_v29, val_main_v28, val_main_v27, val_main_v24, val_main_v23, val_main_c_4, val_main_v26, val_main_v25, val_main_c_5]
  rfl

set_option maxHeartbeats 16000000 in
theorem stretch0_2_keeps (b : Ref sig .tc) (hb : b = main_v3 ∨ b = main_v6 ∨ b = main_arg0 ∨ b = main_arg2 ∨ b = main_arg3 ∨ b = main_arg4 ∨ b = main_arg5) :
    StableHlo.after (hostOps0_2 (F := Ideal)) Wv (Proc.devRef .tc b) = Wv (Proc.devRef .tc b) := by
  unfold hostOps0_2
  rcases hb with rfl | rfl | rfl | rfl | rfl | rfl | rfl <;> after_results_simp

set_option maxHeartbeats 16000000 in
/-- The stretch after the first product: gather along the sources, scale, scatter-add along the destinations; the bias
    reshaped to a row. -/
theorem stretch1 (h3 : Wv (Proc.devRef .tc main_v3) = val_main_v3 (F := Ideal) x1) (h6 : Wv (Proc.devRef .tc main_v6) = val_main_v6 (F := Ideal) x1)
    (h30 : Wv (Proc.devRef .tc main_v30) = val_main_v38 (F := Ideal) x1) (h31 : Wv (Proc.devRef .tc main_v31) = val_main_v15 (F := Ideal) x0 x2)
    (ha3 : Wv (Proc.devRef .tc main_arg3) = x3) :
    StableHlo.after (hostOps1 (F := Ideal)) Wv (Proc.devRef .tc main_v43) = val_main_v43 (F := Ideal) x0 x1 x2
    ∧ StableHlo.after (hostOps1 (F := Ideal)) Wv (Proc.devRef .tc main_v44) = shapeCast S1x16 x3 shapeCasts_S16_S1x16 := by
  unfold hostOps1
  refine ⟨?_, ?_⟩
  · after_results_simp
    simp only [h3, h6, h30, h31]
    simp only [val_main_v43, val_main_v41, val_main_cst_8, val_main_v42, val_main_v40, val_main_v37, val_main_v36, val_main_v35, val_main_v32, val_main_v31, val_main_c_6, val_main_v34, val_main_v33, val_main_c_7, val_main_v39]
    rfl
  · after_results_simp
    simp only [ha3]
    rfl

set_option maxHeartbeats 16000000 in
theorem stretch1_keeps (b : Ref sig .tc) (hb : b = main_v3 ∨ b = main_v6 ∨ b = main_v30 ∨ b = main_arg4 ∨ b = main_arg5) :
    StableHlo.after (hostOps1 (F := Ideal)) Wv (Proc.devRef .tc b) = Wv (Proc.devRef .tc b) := by
  unfold hostOps1
  rcases hb with rfl | rfl | rfl | rfl | rfl <;> after_results_simp

set_option maxHeartbeats 16000000 in
/-- The reference computes the per-edge coefficient a second time for the second layer: the same term. -/
theorem coef_again : val_main_v71 (F := Ideal) x1 = val_main_v38 (F := Ideal) x1 := by
  simp only [val_main_v71, val_main_v63, val_main_v55, val_main_v54, val_main_v53, val_main_v50, val_main_v49, val_main_c_9, val_main_v52, val_main_v51, val_main_c_10, val_main_v62, val_main_v61, val_main_v60, val_main_v57, val_main_v56, val_main_c_11, val_main_v59, val_main_v58, val_main_c_12]
  simp only [val_main_v38, val_main_v30, val_main_v22, val_main_v21, val_main_v20, val_main_v17, val_main_v16, val_main_c, val_main_v19, val_main_v18, val_main_c_3, val_main_v29, val_main_v28, val_main_v27, val_main_v24, val_main_v23, val_main_c_4, val_main_v26, val_main_v25, val_main_c_5]

set_option maxHeartbeats 16000000 in
/-- The stretch after the second product: the same aggregation on seven columns; the second bias reshaped to a row. -/
theorem stretch3 (h3 : Wv (Proc.devRef .tc main_v3) = val_main_v3 (F := Ideal) x1) (h6 : Wv (Proc.devRef .tc main_v6) = val_main_v6 (F := Ideal) x1)
    (h30 : Wv (Proc.devRef .tc main_v30) = val_main_v38 (F := Ideal) x1) (h46 : Wv (Proc.devRef .tc main_v46) = val_main_v48 (F := Ideal) x0 x1 x2 x3 x4)
    (ha5 : Wv (Proc.devRef .tc main_arg5) = x5) :
    StableHlo.after (hostOps3 (F := Ideal)) Wv (Proc.devRef .tc main_v58) = val_main_v76 (F := Ideal) x0 x1 x2 x3 x4
    ∧ StableHlo.after (hostOps3 (F := Ideal)) Wv (Proc.devRef .tc main_v59) = shapeCast S1x7 x5 shapeCasts_S7_S1x7 := by
  unfold hostOps3
  refine ⟨?_, ?_⟩
  · after_results_simp
    simp only [h3, h6, h30, h46]
    simp only [val_main_v76, val_main_v74, val_main_cst_15, val_main_v75, val_main_v73, val_main_v70, val_main_v69, val_main_v68, val_main_v65, val_main_v64, val_main_c_13, val_main_v67, val_main_v66, val_main_c_14, val_main_v72]
    rw [coef_again]
    rfl
  · after_results_simp
    simp only [ha5]
    rfl

end Stretches

/-! ## The fold, boundary by boundary -/

section Run
variable (m : (ℓ : Loc nD τ sig) → Buf (Elt Ideal) ℓ) (ρ : Dev nD → PrngReg) (c : Dev nD)

/-- An argument array holds its launch contents at the first region's entry. -/
theorem entry0_arg (b : Ref sig .tc) (hb : b = main_arg0 ∨ b = main_arg2 ∨ b = main_arg3 ∨ b = main_arg4 ∨ b = main_arg5) :
    W3 m ρ c (Proc.devRef .tc b) = W0 m ρ c (Proc.devRef .tc b) :=
  (stretch0_2_keeps (W2 m ρ c) b (by tauto)).trans ((stretch0_1_keeps (W1 m ρ c) b (by tauto)).trans (stretch0_keeps (W0 m ρ c) b hb))

theorem entry0_src : W3 m ρ c (Proc.devRef .tc main_v3) = val_main_v3 (F := Ideal) (m ((c : Thread nD τ).loc main_arg1)) :=
  (stretch0_2_keeps (W2 m ρ c) main_v3 (by tauto)).trans ((stretch0_1_keeps (W1 m ρ c) main_v3 (by tauto)).trans (stretch0 (W0 m ρ c) (m ((c : Thread nD τ).loc main_arg1)) rfl).1)
theorem entry0_dst : W3 m ρ c (Proc.devRef .tc main_v6) = val_main_v6 (F := Ideal) (m ((c : Thread nD τ).loc main_arg1)) :=
  (stretch0_2_keeps (W2 m ρ c) main_v6 (by tauto)).trans ((stretch0_1_keeps (W1 m ρ c) main_v6 (by tauto)).trans (stretch0 (W0 m ρ c) (m ((c : Thread nD τ).loc main_arg1)) rfl).2.1)
set_option maxHeartbeats 4000000 in
theorem entry0_coef : W3 m ρ c (Proc.devRef .tc main_v30) = val_main_v38 (F := Ideal) (m ((c : Thread nD τ).loc main_arg1)) := by
  obtain ⟨h3, h6, h12, h13, hc⟩ := stretch0 (W0 m ρ c) (m ((c : Thread nD τ).loc main_arg1)) rfl
  have h14 : W2 m ρ c (Proc.devRef .tc main_v14) = val_main_v14 (F := Ideal) (m ((c : Thread nD τ).loc main_arg1)) := stretch0_1 (W1 m ρ c) (m ((c : Thread nD τ).loc main_arg1)) h12 h13 hc
  have h3' : W2 m ρ c (Proc.devRef .tc main_v3) = val_main_v3 (F := Ideal) (m ((c : Thread nD τ).loc main_arg1)) := (stretch0_1_keeps (W1 m ρ c) main_v3 (Or.inl rfl)).trans h3
  have h6' : W2 m ρ c (Proc.devRef .tc main_v6) = val_main_v6 (F := Ideal) (m ((c : Thread nD τ).loc main_arg1)) := (stretch0_1_keeps (W1 m ρ c) main_v6 (Or.inr (Or.inl rfl))).trans h6
  exact stretch0_2 (W2 m ρ c) (m ((c : Thread nD τ).loc main_arg1)) h3' h6' h14

/-- The first region leaves the reference's first product. -/
theorem exit0_product : W4 m ρ c (Proc.devRef .tc main_v31) = val_main_v15 (F := Ideal) (m ((c : Thread nD τ).loc main_arg0)) (m ((c : Thread nD τ).loc main_arg2)) := by
  refine (W4_arr m ρ c 2).trans ?_
  refine (Layer1Product.result (V3 m ρ) c).trans ?_
  show val_main_v15 (F := Ideal) (W3 m ρ c (Proc.devRef .tc main_arg0)) (W3 m ρ c (Proc.devRef .tc main_arg2)) = _
  rw [entry0_arg m ρ c main_arg0 (by tauto), entry0_arg m ρ c main_arg2 (by tauto)]

theorem exit0_keeps (b : Ref sig .tc) (hb : b = main_v3 ∨ b = main_v6 ∨ b = main_v30 ∨ b = main_arg3 ∨ b = main_arg4 ∨ b = main_arg5) :
    W4 m ρ c (Proc.devRef .tc b) = W3 m ρ c (Proc.devRef .tc b) := by
  rcases hb with rfl | rfl | rfl | rfl | rfl | rfl <;> exact W4_of_ne m ρ c _ (by decide)

/-- At the second region's entry: the aggregated features and the bias row. -/
theorem entry1 : W5 m ρ c (Proc.devRef .tc main_v43) = val_main_v43 (F := Ideal) (m ((c : Thread nD τ).loc main_arg0)) (m ((c : Thread nD τ).loc main_arg1)) (m ((c : Thread nD τ).loc main_arg2))
    ∧ W5 m ρ c (Proc.devRef .tc main_v44) = shapeCast S1x16 (m ((c : Thread nD τ).loc main_arg3)) shapeCasts_S16_S1x16 :=
  stretch1 (W4 m ρ c) (m ((c : Thread nD τ).loc main_arg0)) (m ((c : Thread nD τ).loc main_arg1)) (m ((c : Thread nD τ).loc main_arg2)) (m ((c : Thread nD τ).loc main_arg3))
    ((exit0_keeps m ρ c main_v3 (by tauto)).trans (entry0_src m ρ c))
    ((exit0_keeps m ρ c main_v6 (by tauto)).trans (entry0_dst m ρ c))
    ((exit0_keeps m ρ c main_v30 (by tauto)).trans (entry0_coef m ρ c))
    (exit0_product m ρ c)
    ((exit0_keeps m ρ c main_arg3 (by tauto)).trans ((entry0_arg m ρ c main_arg3 (by tauto)).trans rfl))

theorem entry1_keeps (b : Ref sig .tc) (hb : b = main_v3 ∨ b = main_v6 ∨ b = main_v30 ∨ b = main_arg4 ∨ b = main_arg5) :
    W5 m ρ c (Proc.devRef .tc b) = W3 m ρ c (Proc.devRef .tc b) :=
  (stretch1_keeps (W4 m ρ c) b hb).trans (exit0_keeps m ρ c b (by tauto))

/-- The second region leaves the reference's first activation. -/
theorem exit1_act : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Layer1Activation.result (V5 m ρ) c).trans ?_
  show Layer1Activation.biasRelu (W5 m ρ c (Proc.devRef .tc main_v43)) (W5 m ρ c (Proc.devRef .tc main_v44)) = _
  rw [(entry1 m ρ c).1, (entry1 m ρ c).2]
  exact (Cert.ReferenceIdeal.Stages.act1_eq (m ((c : Thread nD τ).loc main_arg0)) (m ((c : Thread nD τ).loc main_arg1)) (m ((c : Thread nD τ).loc main_arg2)) (m ((c : Thread nD τ).loc main_arg3))).symm

theorem exit1_keeps (b : Ref sig .tc) (hb : b = main_v3 ∨ b = main_v6 ∨ b = main_v30 ∨ b = main_arg4 ∨ b = main_arg5) :
    W6 m ρ c (Proc.devRef .tc b) = W5 m ρ c (Proc.devRef .tc b) := by
  rcases hb with rfl | rfl | rfl | rfl | rfl <;> exact W6_of_ne m ρ c _ (by decide)

/-- The third region leaves the reference's second product. -/
theorem exit2_product : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Layer2Product.result (V6 m ρ) c).trans ?_
  show Layer2Product.hostProduct (W6 m ρ c (Proc.devRef .tc main_v45)) (W6 m ρ c (Proc.devRef .tc main_arg4)) = _
  rw [exit1_act m ρ c, exit1_keeps m ρ c main_arg4 (by tauto), entry1_keeps m ρ c main_arg4 (by tauto), entry0_arg m ρ c main_arg4 (by tauto)]
  exact (Cert.ReferenceIdeal.Stages.product2_eq (m ((c : Thread nD τ).loc main_arg0)) (m ((c : Thread nD τ).loc main_arg1)) (m ((c : Thread nD τ).loc main_arg2)) (m ((c : Thread nD τ).loc main_arg3)) (m ((c : Thread nD τ).loc main_arg4))).symm

theorem exit2_keeps (b : Ref sig .tc) (hb : b = main_v3 ∨ b = main_v6 ∨ b = main_v30 ∨ b = main_arg5) :
    W7 m ρ c (Proc.devRef .tc b) = W3 m ρ c (Proc.devRef .tc b) := by
  have h7 : W7 m ρ c (Proc.devRef .tc b) = W6 m ρ c (Proc.devRef .tc b) := by
    rcases hb with rfl | rfl | rfl | rfl <;> exact W7_of_ne m ρ c _ (by decide)
  exact h7.trans ((exit1_keeps m ρ c b (by tauto)).trans (entry1_keeps m ρ c b (by tauto)))

/-- At the last region's entry: the aggregated logits and the second bias row. -/
theorem entry3 : W8 m ρ c (Proc.devRef .tc main_v58) = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    ∧ W8 m ρ c (Proc.devRef .tc main_v59) = shapeCast S1x7 (m ((c : Thread nD τ).loc main_arg5)) shapeCasts_S7_S1x7 :=
  stretch3 (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ((exit2_keeps m ρ c main_v3 (by tauto)).trans (entry0_src m ρ c))
    ((exit2_keeps m ρ c main_v6 (by tauto)).trans (entry0_dst m ρ c))
    ((exit2_keeps m ρ c main_v30 (by tauto)).trans (entry0_coef m ρ c))
    (exit2_product m ρ c)
    ((exit2_keeps m ρ c main_arg5 (by tauto)).trans ((entry0_arg m ρ c main_arg5 (by tauto)).trans rfl))

/-- The last region leaves the reference's result. -/
theorem result : W9 m ρ c (Proc.devRef .tc main_v60) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (OutputLogSoftmax.result (V8 m ρ) c).trans ?_
  show OutputLogSoftmax.logSoftmaxAct (W8 m ρ c (Proc.devRef .tc main_v58)) (W8 m ρ c (Proc.devRef .tc main_v59)) = _
  rw [(entry3 m ρ c).1, (entry3 m ρ c).2]
  exact (Cert.ReferenceIdeal.Stages.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

end Run

end Cert.KernelIdeal.Fold

end
-- ==== Proof.lean ====
/-
  A two-layer graph convolution with a log-softmax output, over 100000 nodes, 3200000 edges and self-loops: the kernel
  computes both dense products, the first activation and the output stage on grids of row blocks, and leaves the edge
  lists, degrees, per-edge coefficients and the two gather / scale / scatter-add aggregations to the host, exactly as the
  reference spells them. At the exact values the two programs are one function of the six arguments: a product taken row
  block by row block with the full contraction axis in each block is the whole product (no sum is re-associated), the
  roundings to bf16 are the identity, the activations and the output stage act row by row, and everything between the
  regions is the reference's own sequence of host operations. No law of the extended reals beyond 0 + x = x and
  max(−∞, x) = x is used, so finiteness of the inputs is never opened.
  The three frames are the generated ones (the reference's from its run); the idealization rewrote nothing.
-/
import proofs.«172935_j3332894622180_1_alg».proof.Defs
import proofs.«172935_j3332894622180_1_alg».proof.Proof.Gen.Kernel
import proofs.«172935_j3332894622180_1_alg».proof.Proof.Gen.Kernel.Skeleton
import proofs.«172935_j3332894622180_1_alg».proof.Proof.Gen.Kernel.Launch
import proofs.«172935_j3332894622180_1_alg».proof.Proof.Gen.Kernel.Points
import proofs.«172935_j3332894622180_1_alg».proof.Proof.Gen.Kernel.Frame
import proofs.«172935_j3332894622180_1_alg».proof.Proof.Gen.KernelIdeal
import proofs.«172935_j3332894622180_1_alg».proof.Proof.Gen.KernelIdeal.Skeleton
import proofs.«172935_j3332894622180_1_alg».proof.Proof.Gen.KernelIdeal.Launch
import proofs.«172935_j3332894622180_1_alg».proof.Proof.Gen.KernelIdeal.Points
import proofs.«172935_j3332894622180_1_alg».proof.Proof.Gen.KernelIdeal.Frame
import proofs.«172935_j3332894622180_1_alg».proof.Proof.Gen.ReferenceIdeal
import proofs.«172935_j3332894622180_1_alg».proof.Proof.Gen.Pre_finite_inputs
import proofs.«172935_j3332894622180_1_alg».proof.Proof.RefRun
import proofs.«172935_j3332894622180_1_alg».proof.Proof.RefRead
import proofs.«172935_j3332894622180_1_alg».proof.Proof.KernelRun
import proofs.«172935_j3332894622180_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's last stage of the six arguments at the result buffer: the kernel's run ends at
    the last contents of its fold through the segments, which is that stage; the reference's run ends at its composed
    term, which is that stage by definition; and the arguments agree. -/
theorem algebraic : Cert.algebraic_KernelIdeal_ReferenceIdeal := by
  intro m ρ m' ρ' _ hagree
  refine ⟨fun c => Cert.ReferenceIdeal.ReadP.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v81_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
